-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v36_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v36_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S262144 : Shape := ⟨1, ![262144]⟩
abbrev S512x256 : Shape := ⟨2, ![512, 256]⟩
abbrev S256x64 : Shape := ⟨2, ![256, 64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S8192x512 .f32) (main_arg1 : IVec S2x262144 32) (main_arg2 : FVec F S262144 .f32) (main_arg3 : FVec F S512x256 .f32) (main_arg4 : FVec F S256x64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S8192x512 : Shape := ⟨2, ![8192, 512]⟩
abbrev S2x262144 : Shape := ⟨2, ![2, 262144]⟩
abbrev S262144 : Shape := ⟨1, ![262144]⟩
abbrev S512x256 : Shape := ⟨2, ![512, 256]⟩
abbrev S256x64 : Shape := ⟨2, ![256, 64]⟩
abbrev S8192x256 : Shape := ⟨2, ![8192, 256]⟩
abbrev S1024x512 : Shape := ⟨2, ![1024, 512]⟩
abbrev S1024x256 : Shape := ⟨2, ![1024, 256]⟩
abbrev S1x262144 : Shape := ⟨2, ![1, 262144]⟩
abbrev S_ : Shape := ⟨0, ![]⟩
abbrev S262144x1 : Shape := ⟨2, ![262144, 1]⟩
abbrev S262144x256 : Shape := ⟨2, ![262144, 256]⟩
abbrev S8192x64 : Shape := ⟨2, ![8192, 64]⟩
abbrev S1024x64 : Shape := ⟨2, ![1024, 64]⟩
abbrev S262144x64 : Shape := ⟨2, ![262144, 64]⟩
abbrev S1024 : Shape := ⟨1, ![1024]⟩
abbrev S1024x1 : Shape := ⟨2, ![1024, 1]⟩
abbrev S64x8192 : Shape := ⟨2, ![64, 8192]⟩
abbrev S8192x8192 : Shape := ⟨2, ![8192, 8192]⟩
abbrev S256x8192 : Shape := ⟨2, ![256, 8192]⟩

abbrev nBuf : Space → Nat
  | .hbm => 51
  | .vmem => 21
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S262144, .f32⟩
  | .hbm, ⟨3, _⟩ => ⟨S512x256, .f32⟩
  | .hbm, ⟨4, _⟩ => ⟨S256x64, .f32⟩
  | .hbm, ⟨5, _⟩ => ⟨S8192x256, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S262144x256, .f32⟩
  | .hbm, ⟨19, _⟩ => ⟨S262144x1, .f32⟩
  | .hbm, ⟨20, _⟩ => ⟨S262144x256, .f32⟩
  | .hbm, ⟨21, _⟩ => ⟨S262144x256, .f32⟩
  | .hbm, ⟨22, _⟩ => ⟨S_, .f32⟩
  | .hbm, ⟨23, _⟩ => ⟨S8192x256, .f32⟩
  | .hbm, ⟨24, _⟩ => ⟨S262144x1, .i32⟩
  | .hbm, ⟨25, _⟩ => ⟨S8192x256, .f32⟩
  | .hbm, ⟨26, _⟩ => ⟨S8192x64, .f32⟩
  | .hbm, ⟨27, _⟩ => ⟨S1x262144, .i32⟩
  | .hbm, ⟨28, _⟩ => ⟨S262144, .i32⟩
  | .hbm, ⟨29, _⟩ => ⟨S1x262144, .i32⟩
  | .hbm, ⟨30, _⟩ => ⟨S262144, .i32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S262144x64, .f32⟩
  | .hbm, ⟨40, _⟩ => ⟨S262144x1, .f32⟩
  | .hbm, ⟨41, _⟩ => ⟨S262144x64, .f32⟩
  | .hbm, ⟨42, _⟩ => ⟨S262144x64, .f32⟩
  | .hbm, ⟨43, _⟩ => ⟨S_, .f32⟩
  | .hbm, ⟨44, _⟩ => ⟨S8192x64, .f32⟩
  | .hbm, ⟨45, _⟩ => ⟨S262144x1, .i32⟩
  | .hbm, ⟨46, _⟩ => ⟨S8192x64, .f32⟩
  | .hbm, ⟨47, _⟩ => ⟨S8192x64, .f32⟩
  | .hbm, ⟨48, _⟩ => ⟨S8192x64, .bf16⟩
  | .hbm, ⟨49, _⟩ => ⟨S64x8192, .bf16⟩
  | .hbm, ⟨50, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .bf16⟩
  | .local _ .vmem, ⟨15, _⟩ => ⟨S1024x64, .bf16⟩
  | .local _ .vmem, ⟨16, _⟩ => ⟨S256x64, .bf16⟩
  | .local _ .vmem, ⟨17, _⟩ => ⟨S256x64, .bf16⟩
  | .local _ .vmem, ⟨18, _⟩ => ⟨S64x8192, .bf16⟩
  | .local _ .vmem, ⟨19, _⟩ => ⟨S256x8192, .f32⟩
  | .local _ .vmem, ⟨20, _⟩ => ⟨S256x8192, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v37 : Ref sig .tc := ⟨.hbm, 49, rfl⟩
abbrev main_v38 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x8192 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x8192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  shapeCasts_S1024x256_S1024x256 : S1024x256.ShapeCasts S1024x256
  inb_S256x64_S256x64_0_0 : ∀ a, (![0, 0] : Fin 2 → Nat) a + S256x64.size a ≤ S256x64.size a
  h_S256x64 : 0 < S256x64.numel
  inb_S1024x64_S1024x64_0_0 : ∀ a, (![0, 0] : Fin 2 → Nat) a + S1024x64.size a ≤ S1024x64.size a
  h_S1024x64 : 0 < S1024x64.numel
  bcast_S262144x1_S262144x64_0_1 : S262144x1.BroadcastsInDim S262144x64 (![0, 1] : Fin 2 → Fin S262144x64.rank)
  bcast_S_S8192x64 : S_.BroadcastsInDim S8192x64 (![] : Fin 0 → Fin S8192x64.rank)
  shapeCasts_S1024x64_S1024x64 : S1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  packedbf16_S1024x64_S1024x64_0_0 : (Rect.unit (s := S1024x64) ![0, 0] S1024x64.size inb_S1024x64_S1024x64_0_0).PackedRows (EltTy.packing .bf16)
  transposes_S8192x64_S64x8192_1_0 : S8192x64.Transposes [1, 0] S64x8192
  shapeCasts_S256x64_S256x64 : S256x64.ShapeCasts S256x64
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S256x8192_S256x8192_0_0 : ∀ a, (![0, 0] : Fin 2 → Nat) a + S256x8192.size a ≤ S256x8192.size a
  h_S256x8192 : 0 < S256x8192.numel
  dot_S1024x512_S512x256_S1024x256_1_0_0_1_n_n_wf : DotDims.WF S1024x512 S512x256 S1024x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S1024x256_S256x64_S1024x64_1_0_0_1_n_n_wf : DotDims.WF S1024x256 S256x64 S1024x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S256x64_S64x8192_S256x8192_1_0_0_1_n_n_wf : DotDims.WF S256x64 S64x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .f32 = 32 ∨ (Rect.block (s := S8192x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S8192x64.size a
  hwx2_2 : ∀ i : grid2.Coords, EltTy.bits .bf16 = 32 ∨ (Rect.block (s := S8192x64) S1024x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x64.size a ≤ S8192x64.size a
  hwx3_0 : ∀ i : grid3.Coords, EltTy.bits .bf16 = 32 ∨ (Rect.block (s := S8192x64) S256x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x8192.size a ≤ S64x8192.size a
  hwx3_1 : ∀ i : grid3.Coords, EltTy.bits .bf16 = 32 ∨ (Rect.block (s := S64x8192) S64x8192.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x8192.size a ≤ S8192x8192.size a
  hwx3_2 : ∀ i : grid3.Coords, EltTy.bits .f32 = 32 ∨ (Rect.block (s := S8192x8192) S256x8192.size (cc3_transform_2 i) (hinb3_2 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S256x64_S64x8192_S256x8192_1_0_0_1_n_n : DotDims S256x64 S64x8192 S256x8192 where
  lhsContracting := [1]
  rhsContracting := [0]
  lhsNonContracting := [0]
  rhsNonContracting := [1]
  lhsBatch := []
  rhsBatch := []
  wf := dot_S256x64_S64x8192_S256x8192_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36_0) S1024x64.size cc2_transform_1 reads2_1 true false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36_1) S1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v36_1) S256x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S64x8192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S256x8192.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x512 : Shape := ⟨2, ![8192, 512]⟩
abbrev S2x262144 : Shape := ⟨2, ![2, 262144]⟩
abbrev S262144 : Shape := ⟨1, ![262144]⟩
abbrev S512x256 : Shape := ⟨2, ![512, 256]⟩
abbrev S256x64 : Shape := ⟨2, ![256, 64]⟩
abbrev S8192x256 : Shape := ⟨2, ![8192, 256]⟩
abbrev S1x262144 : Shape := ⟨2, ![1, 262144]⟩
abbrev S_ : Shape := ⟨0, ![]⟩
abbrev S262144x1 : Shape := ⟨2, ![262144, 1]⟩
abbrev S262144x256 : Shape := ⟨2, ![262144, 256]⟩
abbrev S8192x64 : Shape := ⟨2, ![8192, 64]⟩
abbrev S262144x64 : Shape := ⟨2, ![262144, 64]⟩
abbrev S8192 : Shape := ⟨1, ![8192]⟩
abbrev S8192x1 : Shape := ⟨2, ![8192, 1]⟩
abbrev S64x8192 : Shape := ⟨2, ![64, 8192]⟩
abbrev S8192x8192 : Shape := ⟨2, ![8192, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S262144, .f32⟩
  | .hbm, ⟨3, _⟩ => ⟨S512x256, .f32⟩
  | .hbm, ⟨4, _⟩ => ⟨S256x64, .f32⟩
  | .hbm, ⟨5, _⟩ => ⟨S8192x256, .f32⟩
  | .hbm, ⟨6, _⟩ => ⟨S1x262144, .i32⟩
  | .hbm, ⟨7, _⟩ => ⟨S262144, .i32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S262144x1, .i32⟩
  | .hbm, ⟨16, _⟩ => ⟨S262144x256, .f32⟩
  | .hbm, ⟨17, _⟩ => ⟨S262144x1, .f32⟩
  | .hbm, ⟨18, _⟩ => ⟨S262144x256, .f32⟩
  | .hbm, ⟨19, _⟩ => ⟨S262144x256, .f32⟩
  | .hbm, ⟨20, _⟩ => ⟨S1x262144, .i32⟩
  | .hbm, ⟨21, _⟩ => ⟨S262144, .i32⟩
  | .hbm, ⟨22, _⟩ => ⟨S_, .f32⟩
  | .hbm, ⟨23, _⟩ => ⟨S8192x256, .f32⟩
  | .hbm, ⟨24, _⟩ => ⟨S262144x1, .i32⟩
  | .hbm, ⟨25, _⟩ => ⟨S8192x256, .f32⟩
  | .hbm, ⟨26, _⟩ => ⟨S8192x64, .f32⟩
  | .hbm, ⟨27, _⟩ => ⟨S1x262144, .i32⟩
  | .hbm, ⟨28, _⟩ => ⟨S262144, .i32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S262144x1, .i32⟩
  | .hbm, ⟨37, _⟩ => ⟨S262144x64, .f32⟩
  | .hbm, ⟨38, _⟩ => ⟨S262144x1, .f32⟩
  | .hbm, ⟨39, _⟩ => ⟨S262144x64, .f32⟩
  | .hbm, ⟨40, _⟩ => ⟨S262144x64, .f32⟩
  | .hbm, ⟨41, _⟩ => ⟨S1x262144, .i32⟩
  | .hbm, ⟨42, _⟩ => ⟨S262144, .i32⟩
  | .hbm, ⟨43, _⟩ => ⟨S_, .f32⟩
  | .hbm, ⟨44, _⟩ => ⟨S8192x64, .f32⟩
  | .hbm, ⟨45, _⟩ => ⟨S262144x1, .i32⟩
  | .hbm, ⟨46, _⟩ => ⟨S8192x64, .f32⟩
  | .hbm, ⟨47, _⟩ => ⟨S8192x64, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x64, .f32⟩
  | .hbm, ⟨57, _⟩ => ⟨S8192x64, .f32⟩
  | .hbm, ⟨58, _⟩ => ⟨S64x8192, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v36 : Ref sig .tc := ⟨.hbm, 51, rfl⟩
abbrev main_cst_4 : Ref sig .tc := ⟨.hbm, 52, rfl⟩
abbrev main_call1_v0 : Ref sig .tc := ⟨.hbm, 53, rfl⟩
abbrev main_call1_v1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  slices_S2x262144_S1x262144_1_0 : S2x262144.Slices ![1, 0] S1x262144
  shapeCasts_S1x262144_S262144 : S1x262144.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  slices_S2x262144_S1x262144_0_0 : S2x262144.Slices ![0, 0] S1x262144
  bcast_S_S8192x256 : S_.BroadcastsInDim S8192x256 (![] : Fin 0 → Fin S8192x256.rank)
  bcast_S262144x1_S262144x64_0_1 : S262144x1.BroadcastsInDim S262144x64 (![0, 1] : Fin 2 → Fin S262144x64.rank)
  bcast_S_S8192x64 : S_.BroadcastsInDim S8192x64 (![] : Fin 0 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x64_S8192x64_1_0_0_1_n_n_wf : DotDims.WF S8192x256 S256x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x8192_S8192x8192_1_0_0_1_n_n_wf : DotDims.WF S8192x64 S64x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Spec.lean ====
/-
  What the two programs compute, stage by stage, as functions of whole arrays.

  A graph-convolution layer is `aggregate (h · W)`: the rows of the projected features are gathered along the edges'
  destinations, scaled by the edge weights and added up at the edges' sources. Two layers, then every row divided by
  its Euclidean norm (clipped below at 1e-12), give the embedding `z`; the decoded adjacency is the logistic function of
  `z · zᵀ`, entry by entry. Each stage is written here once, in the host's operations, over the extended reals; the
  reference's two results are these stages composed (by unfolding), and the kernel's four launches are shown,
  elsewhere, to compute the same stages.
-/
import proofs.«170679_j45561013076147_1_alg».proof.Proof.Gen.ReferenceIdeal.Run
import Idealize.ShloMosaic.PureOps.Ideal

noncomputable section

namespace Cert.Spec

open Cert.ReferenceIdeal Cert.ReferenceIdeal.Gen Idealize.ShloMosaic Idealize.ShloMosaic.TcCoe Idealize.SL.Sem

/-- The edges' sources, as a column of row numbers. -/
def sources (ei : (⟨S2x262144, .i32⟩ : BufTy).Contents (Elt Ideal)) : (⟨S262144x1, .i32⟩ : BufTy).Contents (Elt Ideal) :=
  broadcastInDim S262144x1 ![0] bcast_S262144_S262144x1_0
    (shapeCast _ (extractStridedSlice S1x262144 ![0, 0] ei slices_S2x262144_S1x262144_0_0) shapeCasts_S1x262144_S262144)

/-- The edges' destinations, a negative one counted from the end, as a column of row numbers. -/
def destinations (ei : (⟨S2x262144, .i32⟩ : BufTy).Contents (Elt Ideal)) : (⟨S262144x1, .i32⟩ : BufTy).Contents (Elt Ideal) :=
  broadcastInDim S262144x1 ![0] bcast_S262144_S262144x1_0
    (select (cmpi .slt (shapeCast _ (extractStridedSlice S1x262144 ![1, 0] ei slices_S2x262144_S1x262144_1_0) shapeCasts_S1x262144_S262144)
        (broadcastInDim S262144 ![] bcast_S_S262144 (constantI S_ 32 0#32)))
      (addi (shapeCast _ (extractStridedSlice S1x262144 ![1, 0] ei slices_S2x262144_S1x262144_1_0) shapeCasts_S1x262144_S262144)
        (broadcastInDim S262144 ![] bcast_S_S262144 (constantI S_ 32 8192#32)))
      (shapeCast _ (extractStridedSlice S1x262144 ![1, 0] ei slices_S2x262144_S1x262144_1_0) shapeCasts_S1x262144_S262144))

/-- The first projection `x · W1`. -/
def project1 (x : FVec Ideal S8192x512 .f32) (w : FVec Ideal S512x256 .f32) :
    FVec Ideal S8192x256 .f32 :=
  Host.dotGeneral (F := Ideal) dot_S8192x512_S512x256_S8192x256_1_0_0_1_n_n none x w

/-- The first aggregation: rows gathered at the destinations, scaled by the edge weights, summed at the sources. -/
def aggregate1 (s : FVec Ideal S8192x256 .f32) (ei : (⟨S2x262144, .i32⟩ : BufTy).Contents (Elt Ideal))
    (ew : FVec Ideal S262144 .f32) : FVec Ideal S8192x256 .f32 :=
  Host.scatterAdd (F := Ideal) scatter_S8192x256_S262144x1_S262144x256_1_0_0_1
    (broadcastInDim S8192x256 ![] bcast_S_S8192x256 (constant (F := Ideal) S_ .f32 0x00000000#32)) (sources ei)
    (mulf (Host.gather gather_S8192x256_S262144x1_S262144x256_1_0_n_n_0_1_1256 s (destinations ei))
      (broadcastInDim S262144x256 ![0, 1] bcast_S262144x1_S262144x256_0_1 (broadcastInDim S262144x1 ![0] bcast_S262144_S262144x1_0 ew)))

/-- The second projection `h · W2`. -/
def project2 (h : FVec Ideal S8192x256 .f32) (w : FVec Ideal S256x64 .f32) :
    FVec Ideal S8192x64 .f32 :=
  Host.dotGeneral (F := Ideal) dot_S8192x256_S256x64_S8192x64_1_0_0_1_n_n none h w

/-- The second aggregation. -/
def aggregate2 (s : FVec Ideal S8192x64 .f32) (ei : (⟨S2x262144, .i32⟩ : BufTy).Contents (Elt Ideal))
    (ew : FVec Ideal S262144 .f32) : FVec Ideal S8192x64 .f32 :=
  Host.scatterAdd (F := Ideal) scatter_S8192x64_S262144x1_S262144x64_1_0_0_1
    (broadcastInDim S8192x64 ![] bcast_S_S8192x64 (constant (F := Ideal) S_ .f32 0x00000000#32)) (sources ei)
    (mulf (Host.gather gather_S8192x64_S262144x1_S262144x64_1_0_n_n_0_1_164 s (destinations ei))
      (broadcastInDim S262144x64 ![0, 1] bcast_S262144x1_S262144x64_0_1 (broadcastInDim S262144x1 ![0] bcast_S262144_S262144x1_0 ew)))

/-- Every row divided by its Euclidean norm, the norm clipped below at the float nearest 1e-12. -/
def normalized (h : FVec Ideal S8192x64 .f32) : FVec Ideal S8192x64 .f32 :=
  Host.divf (F := Ideal) h (broadcastInDim S8192x64 ![0, 1] bcast_S8192x1_S8192x64_0_1
    (maximumf (broadcastInDim S8192x1 ![] bcast_S_S8192x1 (id (constant (F := Ideal) S_ .f32 0x2B8CBCCC#32)))
      (Host.sqrt (broadcastInDim S8192x1 ![0] bcast_S8192_S8192x1_0
        (Host.reduceAdd (mulf h h) (constant (F := Ideal) S_ .f32 0x00000000#32) reducesTo_S8192x64_S8192_d1 h_S_)))))

/-- The logistic function `1 / (1 + e^(-s))` of the product of a left and a right factor, entry by entry. -/
def decodedOf {φ₁ φ₂ : FTy} (zl : FVec Ideal S8192x64 φ₁) (zr : FVec Ideal S64x8192 φ₂) : FVec Ideal S8192x8192 .f32 :=
  Host.divf (F := Ideal) (broadcastInDim S8192x8192 ![] bcast_S_S8192x8192 (constant (F := Ideal) S_ .f32 0x3F800000#32))
    (addf (broadcastInDim S8192x8192 ![] bcast_S_S8192x8192 (constant (F := Ideal) S_ .f32 0x3F800000#32))
      (Host.exp (Host.negf (Host.dotGeneral dot_S8192x64_S64x8192_S8192x8192_1_0_0_1_n_n none zl zr))))

/-- The decoded adjacency of an embedding: the logistic function of `z · zᵀ`. -/
def decoded (z : FVec Ideal S8192x64 .f32) : FVec Ideal S8192x8192 .f32 :=
  decodedOf (φ₁ := .f32) (φ₂ := .f32) z (transpose S64x8192 [1, 0] z transposes_S8192x64_S64x8192_1_0)

/-- The embedding of the five argument arrays. -/
def embedding (x : FVec Ideal S8192x512 .f32) (ei : (⟨S2x262144, .i32⟩ : BufTy).Contents (Elt Ideal))
    (ew : FVec Ideal S262144 .f32) (w1 : FVec Ideal S512x256 .f32)
    (w2 : FVec Ideal S256x64 .f32) : FVec Ideal S8192x64 .f32 :=
  normalized (aggregate2 (project2 (aggregate1 (project1 x w1) ei ew) w2) ei ew)

variable (m : (ℓ : Loc nD τ sig) → Buf (Elt Ideal) ℓ) (c : Dev nD)

set_option maxRecDepth 8192 in
/-- The reference's second result is the embedding of its arguments. -/
theorem reference_embedding : Cert.ReferenceIdeal.Value.res_out1 (F := Ideal) m c
    = embedding (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  unfold Cert.ReferenceIdeal.Value.res_out1 Cert.ReferenceIdeal.Value.res_main_v39 embedding normalized aggregate2 project2 aggregate1 project1 sources destinations
  rfl

set_option maxRecDepth 8192 in
/-- The reference's first result is the decoded adjacency of that embedding. -/
theorem reference_adjacency : Cert.ReferenceIdeal.Value.res_out0 (F := Ideal) m c
    = decoded (embedding (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) := by
  unfold Cert.ReferenceIdeal.Value.res_out0 Cert.ReferenceIdeal.Value.res_main_v47 decoded decodedOf embedding normalized aggregate2 project2 aggregate1 project1 sources destinations
  rfl

end Cert.Spec

end
-- ==== Proof.KernelRun.lean ====
/-
  The idealized kernel's run, with its two results named.

  @main is four launches among three stretches of host operations. From any launch memory every weakly fair
  execution ends, and every unscoped buffer of the TensorCore then holds the last segment boundary's contents — the
  fold `W7` of the seven segments over the launch memory: a launch's arrays at what its write-backs leave, a host
  stretch's buffers at the composed operations. In particular the two result arrays (the decoded adjacency and the
  normalized embedding) hold `W7` at their buffers, and the five argument arrays are unchanged.
-/
import proofs.«170679_j45561013076147_1_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result arrays at the last
    boundary's contents and the arguments as launched: the segments' run launched from the memory, the last thread
    state (every unscoped buffer at `W7`) read against the final state. -/
theorem run : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_v36_0) = W7 m ρ c (Proc.devRef .tc main_v36_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v38 (by decide)),
       h c _ (mem_uc main_v36_0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Whole

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibRowBlockMatmul.lean ====
/-
  A block of rows of a plain matrix product.

  For the plain contraction `[M, K] × [K, N] → [M, N]` on the extended reals, the host's product (no accumulator)
  and the matrix unit's product into the zero matrix are one function, and both read at `(r, c)` as
  `Σ_k lhs (r, k) · rhs (k, c)`. Hence a product computed on a BLOCK OF ROWS of the left operand — a `[Mb, K]` matrix
  whose row `p` is row `r` of the whole `[Mt, K]` matrix — has, at `(p, c)`, the entry `(r, c)` of the whole product:
  a row of the product depends on that row of the left operand only. All at any extents, and whatever the float
  formats of the four matrices (on the extended reals a change of format is the identity).
-/
import Idealize.ShloMosaic.Lib.ValueIdx
import Idealize.ShloMosaic.PureOps.Ideal.Laws
import proofs.«170679_j45561013076147_1_alg».proof.Proof.LibPlainMatmul

namespace Cert.RowBlockMatmul

open Idealize.ShloMosaic Idealize.ShloMosaic.ValueIdx

/-- The host's product is the matrix unit's product into the zero matrix, for any dimension numbers. -/
theorem dotGeneral_eq_matmul_zero {sl sr so : Shape} {φ₁ φ₂ : FTy} (d : DotDims sl sr so)
    (prec : Option ContractPrecision) (sched : HostSchedule) (lhs : FVec Ideal sl φ₁) (rhs : FVec Ideal sr φ₂) :
    FloatOps.dotGeneral d prec sched lhs rhs = FloatOps.matmul d prec lhs rhs (constant so .f32 0x00000000#32) := by
  funext j
  rw [Ideal.dotGeneral_apply, Ideal.matmul_constant_zero_apply]

variable {M K N : ℕ}

/-- The host's plain product at `(r, c)`: the sum over `k` of `lhs (r, k) · rhs (k, c)`. -/
theorem plainDot_apply {φ₁ φ₂ : FTy} (sched : HostSchedule) (lhs : FVec Ideal ⟨2, ![M, K]⟩ φ₁)
    (rhs : FVec Ideal ⟨2, ![K, N]⟩ φ₂) (r : Fin M) (c : Fin N) :
    FloatOps.dotGeneral (DotDims.plain M K N) none sched lhs rhs (ix2 r c)
      = ∑ k : Fin K, lhs (ix2 r k) * rhs (ix2 k c) := by
  rw [dotGeneral_eq_matmul_zero]
  exact Cert.PlainMatmul.plain_apply lhs rhs r c

/-- A block of rows: if row `p` of `Xb` is row `r` of `X`, and column `c` of `Wb` is column `c` of `W`, the matrix
    unit's product of the blocks at `(p, c)` is the host's product of the whole matrices at `(r, c)`. -/
theorem rowBlock_apply {Mb Mt : ℕ} {φ₁ φ₂ ψ₁ ψ₂ : FTy} (sched : HostSchedule)
    (X : FVec Ideal ⟨2, ![Mt, K]⟩ ψ₁) (W : FVec Ideal ⟨2, ![K, N]⟩ ψ₂)
    (Xb : FVec Ideal ⟨2, ![Mb, K]⟩ φ₁) (Wb : FVec Ideal ⟨2, ![K, N]⟩ φ₂) (p : Fin Mb) (c : Fin N) (r : Fin Mt)
    (hX : ∀ k : Fin K, Xb (ix2 p k) = X (ix2 r k)) (hW : ∀ k : Fin K, Wb (ix2 k c) = W (ix2 k c)) :
    FloatOps.matmul (DotDims.plain Mb K N) none Xb Wb (constant ⟨2, ![Mb, N]⟩ .f32 0x00000000#32) (ix2 p c)
      = FloatOps.dotGeneral (DotDims.plain Mt K N) none sched X W (ix2 r c) := by
  rw [Cert.PlainMatmul.plain_apply, plainDot_apply]
  exact Finset.sum_congr rfl fun k _ => by rw [hX k, hW k]

end Cert.RowBlockMatmul
-- ==== Proof.Support1.lean ====
/-
  The first projection, block by block.

  The first launch computes `x · W1` on eight blocks of 1024 rows: grid point `t` reads rows `1024 t … 1024 t + 1023`
  of `x` and all of `W1`, multiplies them on the matrix unit into the zero matrix, and writes rows
  `1024 t … 1024 t + 1023` of the result. A row of a product depends on that row of the left operand only, so each
  block written back is that block of rows of the whole product `x · W1`; the eight blocks tile the 8192 rows, so the
  array the launch leaves IS the whole product, as the host would compute it.
-/
import proofs.«170679_j45561013076147_1_alg».proof.Proof.Gen.KernelIdeal.Frame
import proofs.«170679_j45561013076147_1_alg».proof.Proof.LibRowBlockMatmul
import Idealize.ShloMosaic.Lib.Pipeline.Value

noncomputable section

namespace Cert.KernelIdeal.Support1

open Cert.KernelIdeal Cert.KernelIdeal.Gen Idealize.ShloMosaic Idealize.ShloMosaic.TcCoe Idealize.SL.Sem
open Idealize.ShloMosaic.ValueIdx
open Idealize.ShloMosaic.Pipeline (Dat)

-- the contents of the TensorCore's buffers when the launch is entered
variable (V : (c : Dev nD) → (b : Ref sig .tc) → Buf (Elt Ideal) ((c : Thread nD τ).loc b))

theorem zeros : (![0, 0] : Fin 2 → Nat) = fun _ => 0 := funext fun a => by fin_cases a <;> rfl

/-- The whole product `x · W` of an `[8192, 512]` and a `[512, 256]` matrix, as the host computes it. -/
abbrev product (x : FVec Ideal S8192x512 .f32) (w : FVec Ideal S512x256 .f32) : FVec Ideal S8192x256 .f32 :=
  Host.dotGeneral (F := Ideal) (DotDims.plain 8192 512 256) none x w

/-- One block's product at `(p, q)` is the whole product at `(r, q)` when row `p` of the block is row `r` of `x`. -/
theorem block_entry (x0 : Vec Ideal S1024x512 .f32) (x1 : Vec Ideal S512x256 .f32)
    (X : FVec Ideal S8192x512 .f32) (W : FVec Ideal S512x256 .f32) (p : Fin 1024) (q : Fin 256) (r : Fin 8192)
    (hX : ∀ k : Fin 512, x0 (ix2 p k) = X (ix2 r k)) (hW : ∀ k : Fin 512, x1 (ix2 k q) = W (ix2 k q)) :
    k0_pay1 x0 x1 (ix2 p q) = product X W (ix2 r q) := by
  unfold k0_pay1
  exact Cert.RowBlockMatmul.rowBlock_apply .single X W (truncf .bf16 x0 bitsLt_bf16_f32) (truncf .bf16 x1 bitsLt_bf16_f32) p q r hX hW

/-- The printed index maps over the grid: the rows move with the point, the columns do not. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the launch finds. -/
theorem flushed_eq (c : Dev nD) (t : Fin cfg0.N) :
    (dat0 V c).flushed 2 t
      = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zeros]
  simp only [View.ld_unit_zero (S := S1024x512) zeros, View.ld_unit_zero (S := S512x256) zeros]
  obtain ⟨e0, e1, e2, e3, e4, e5⟩ := index_facts t
  have ht : t.val < 8 := by have := t.isLt; have hN : cfg0.N = 8 := N_0; omega
  funext y
  obtain ⟨p, q, rfl⟩ : ∃ (p : Fin 1024) (q : Fin 256), y = ix2 p q := ⟨y 0, y 1, eq_ix2 y⟩
  show k0_pay1 (iblk0 V c 0 t) (iblk0 V c 1 t) (ix2 p q)
    = product (V c main_arg0) (V c main_arg3) (((cfg0.win 2).blk t).view.emb (ix2 p q))
  have hr : t.val * 1024 + p.val < 8192 := by have := p.isLt; omega
  have hemb : ((cfg0.win 2).blk t).view.emb (ix2 p q) = ix2 (⟨t.val * 1024 + p.val, hr⟩ : Fin 8192) q := by
    funext a; apply Fin.ext
    match a with
    | ⟨0, _⟩ => show win0_2.index t (0 : Fin 2) * 1024 + 1 * p.val = t.val * 1024 + p.val; omega
    | ⟨1, _⟩ => show win0_2.index t (1 : Fin 2) * 256 + 1 * q.val = q.val; omega
  rw [hemb]
  refine block_entry _ _ _ _ p q ⟨t.val * 1024 + p.val, hr⟩ (fun k => ?_) (fun k => ?_)
  · show V c main_arg0 (((cfg0.win 0).blk t).view.emb (ix2 p k)) = V c main_arg0 (ix2 ⟨t.val * 1024 + p.val, hr⟩ k)
    refine congrArg (V c main_arg0) ?_
    funext a; apply Fin.ext
    match a with
    | ⟨0, _⟩ => show win0_0.index t (0 : Fin 2) * 1024 + 1 * p.val = t.val * 1024 + p.val; omega
    | ⟨1, _⟩ => show win0_0.index t (1 : Fin 2) * 512 + 1 * k.val = k.val; omega
  · show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 512 + 1 * k.val = k.val; omega
    | ⟨1, _⟩ => show win0_1.index t (1 : Fin 2) * 256 + 1 * q.val = q.val; omega

/-- An index of the result is in point `t`'s block iff each coordinate is in the block's range on its axis. -/
theorem mem_blk (t : Fin cfg0.N) (i : S8192x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v0).slice (win0_2.rect t)).set ↔ _
  rw [View.set_slice_whole, Rect.mem_set_unit]
  exact Iff.rfl

/-- Every row of the result is in the block of the point `row / 1024`. -/
theorem cover (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 8 := N_0
  refine ⟨⟨(i 0).val / 1024, by rw [hN]; omega⟩, flush0_2 _, ?_⟩
  rw [mem_blk]
  obtain ⟨e0, e1, e2, e3, e4, e5⟩ := index_facts ⟨(i 0).val / 1024, by rw [hN]; omega⟩
  intro a
  match a with
  | ⟨0, _⟩ =>
    show win0_2.index _ (0 : Fin 2) * 1024 ≤ (i 0).val ∧ (i 0).val < win0_2.index _ (0 : Fin 2) * 1024 + 1024
    rw [e4]; show (i 0).val / 1024 * 1024 ≤ (i 0).val ∧ (i 0).val < (i 0).val / 1024 * 1024 + 1024; omega
  | ⟨1, _⟩ =>
    show win0_2.index _ (1 : Fin 2) * 256 ≤ (i 1).val ∧ (i 1).val < win0_2.index _ (1 : Fin 2) * 256 + 256
    rw [e5]; omega

/-- THE ARRAY THE LAUNCH LEAVES: the whole product of the two arrays it found. -/
theorem result (c : Dev nD) :
    (dat0 V c).arrAt 2 cfg0.N = product (V c main_arg0) (V c main_arg3) :=
  (dat0 V c).arrAt_eq_of_cover 2 (product (V c main_arg0) (V c main_arg3)) (fun t _ => flushed_eq V c t) cover

end Cert.KernelIdeal.Support1

end
-- ==== Proof.Support2.lean ====
/-
  The second projection, block by block.

  The second launch computes `h · W2` on eight blocks of 1024 rows, as the first computed `x · W1`: grid point `t`
  multiplies rows `1024 t … 1024 t + 1023` of the aggregated features by all of `W2` into the zero matrix and writes
  those rows of the result. Each block is that block of rows of the whole product, and the eight blocks tile the 8192
  rows, so the array the launch leaves is the whole product `h · W2`, as the host would compute it.
-/
import proofs.«170679_j45561013076147_1_alg».proof.Proof.Gen.KernelIdeal.Frame
import proofs.«170679_j45561013076147_1_alg».proof.Proof.LibRowBlockMatmul
import Idealize.ShloMosaic.Lib.Pipeline.Value

noncomputable section

namespace Cert.KernelIdeal.Support2

open Cert.KernelIdeal Cert.KernelIdeal.Gen Idealize.ShloMosaic Idealize.ShloMosaic.TcCoe Idealize.SL.Sem
open Idealize.ShloMosaic.ValueIdx
open Idealize.ShloMosaic.Pipeline (Dat)

-- the contents of the TensorCore's buffers when the launch is entered
variable (V : (c : Dev nD) → (b : Ref sig .tc) → Buf (Elt Ideal) ((c : Thread nD τ).loc b))

theorem zeros : (![0, 0] : Fin 2 → Nat) = fun _ => 0 := funext fun a => by fin_cases a <;> rfl

/-- The whole product `h · W` of an `[8192, 256]` and a `[256, 64]` matrix, as the host computes it. -/
abbrev product (x : FVec Ideal S8192x256 .f32) (w : FVec Ideal S256x64 .f32) : FVec Ideal S8192x64 .f32 :=
  Host.dotGeneral (F := Ideal) (DotDims.plain 8192 256 64) none x w

/-- One block's product at `(p, q)` is the whole product at `(r, q)` when row `p` of the block is row `r` of `x`. -/
theorem block_entry (x0 : Vec Ideal S1024x256 .f32) (x1 : Vec Ideal S256x64 .f32)
    (X : FVec Ideal S8192x256 .f32) (W : FVec Ideal S256x64 .f32) (p : Fin 1024) (q : Fin 64) (r : Fin 8192)
    (hX : ∀ k : Fin 256, x0 (ix2 p k) = X (ix2 r k)) (hW : ∀ k : Fin 256, x1 (ix2 k q) = W (ix2 k q)) :
    k1_pay1 x0 x1 (ix2 p q) = product X W (ix2 r q) := by
  unfold k1_pay1
  rw [shapeCast_self]
  exact Cert.RowBlockMatmul.rowBlock_apply .single X W (truncf .bf16 x0 bitsLt_bf16_f32) (truncf .bf16 x1 bitsLt_bf16_f32) p q r hX hW

/-- The printed index maps over the grid: the rows move with the point, the columns do not. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays the launch finds. -/
theorem flushed_eq (c : Dev nD) (t : Fin cfg1.N) :
    (dat1 V c).flushed 2 t
      = ((cfg1.win 2).blk t).view.read (Elt Ideal) (product (V c main_v17) (V c main_arg4)) := by
  show (cfg1.win 2).cut (grid1.coords t) ((dat1 V c).after 2 t) = _
  rw [after1_2]
  unfold out1_2
  rw [View.canon_unit_zero zeros]
  simp only [View.ld_unit_zero (S := S1024x256) zeros, View.ld_unit_zero (S := S256x64) zeros]
  obtain ⟨e0, e1, e2, e3, e4, e5⟩ := index_facts t
  have ht : t.val < 8 := by have := t.isLt; have hN : cfg1.N = 8 := N_1; omega
  funext y
  obtain ⟨p, q, rfl⟩ : ∃ (p : Fin 1024) (q : Fin 64), y = ix2 p q := ⟨y 0, y 1, eq_ix2 y⟩
  show k1_pay1 (iblk1 V c 0 t) (iblk1 V c 1 t) (ix2 p q)
    = product (V c main_v17) (V c main_arg4) (((cfg1.win 2).blk t).view.emb (ix2 p q))
  have hr : t.val * 1024 + p.val < 8192 := by have := p.isLt; omega
  have hemb : ((cfg1.win 2).blk t).view.emb (ix2 p q) = ix2 (⟨t.val * 1024 + p.val, hr⟩ : Fin 8192) q := by
    funext a; apply Fin.ext
    match a with
    | ⟨0, _⟩ => show win1_2.index t (0 : Fin 2) * 1024 + 1 * p.val = t.val * 1024 + p.val; omega
    | ⟨1, _⟩ => show win1_2.index t (1 : Fin 2) * 64 + 1 * q.val = q.val; omega
  rw [hemb]
  refine block_entry _ _ _ _ p q ⟨t.val * 1024 + p.val, hr⟩ (fun k => ?_) (fun k => ?_)
  · show V c main_v17 (((cfg1.win 0).blk t).view.emb (ix2 p k)) = V c main_v17 (ix2 ⟨t.val * 1024 + p.val, hr⟩ k)
    refine congrArg (V c main_v17) ?_
    funext a; apply Fin.ext
    match a with
    | ⟨0, _⟩ => show win1_0.index t (0 : Fin 2) * 1024 + 1 * p.val = t.val * 1024 + p.val; omega
    | ⟨1, _⟩ => show win1_0.index t (1 : Fin 2) * 256 + 1 * k.val = k.val; omega
  · show V c main_arg4 (((cfg1.win 1).blk t).view.emb (ix2 k q)) = V c main_arg4 (ix2 k q)
    refine congrArg (V c main_arg4) ?_
    funext a; apply Fin.ext
    match a with
    | ⟨0, _⟩ => show win1_1.index t (0 : Fin 2) * 256 + 1 * k.val = k.val; omega
    | ⟨1, _⟩ => show win1_1.index t (1 : Fin 2) * 64 + 1 * q.val = q.val; omega

/-- An index of the result is in point `t`'s block iff each coordinate is in the block's range on its axis. -/
theorem mem_blk (t : Fin cfg1.N) (i : S8192x64.Idx) :
    i ∈ ((cfg1.win 2).blk t).view.set ↔ ∀ a : Fin 2, win1_2.index t a * S1024x64.size a ≤ (i a).val
      ∧ (i a).val < win1_2.index t a * S1024x64.size a + S1024x64.size a := by
  show i ∈ ((View.whole main_v18).slice (win1_2.rect t)).set ↔ _
  rw [View.set_slice_whole, Rect.mem_set_unit]
  exact Iff.rfl

/-- Every row of the result is in the block of the point `row / 1024`. -/
theorem cover (i : S8192x64.Idx) :
    ∃ t : Fin cfg1.N, (cfg1.win 2).flush t = true ∧ i ∈ ((cfg1.win 2).blk t).view.set := by
  have hi0 : (i 0).val < 8192 := (i 0).isLt
  have hi1 : (i 1).val < 64 := (i 1).isLt
  have hN : cfg1.N = 8 := N_1
  refine ⟨⟨(i 0).val / 1024, by rw [hN]; omega⟩, flush1_2 _, ?_⟩
  rw [mem_blk]
  obtain ⟨e0, e1, e2, e3, e4, e5⟩ := index_facts ⟨(i 0).val / 1024, by rw [hN]; omega⟩
  intro a
  match a with
  | ⟨0, _⟩ =>
    show win1_2.index _ (0 : Fin 2) * 1024 ≤ (i 0).val ∧ (i 0).val < win1_2.index _ (0 : Fin 2) * 1024 + 1024
    rw [e4]; show (i 0).val / 1024 * 1024 ≤ (i 0).val ∧ (i 0).val < (i 0).val / 1024 * 1024 + 1024; omega
  | ⟨1, _⟩ =>
    show win1_2.index _ (1 : Fin 2) * 64 ≤ (i 1).val ∧ (i 1).val < win1_2.index _ (1 : Fin 2) * 64 + 64
    rw [e5]; omega

/-- THE ARRAY THE LAUNCH LEAVES: the whole product of the two arrays it found. -/
theorem result (c : Dev nD) :
    (dat1 V c).arrAt 2 cfg1.N = product (V c main_v17) (V c main_arg4) :=
  (dat1 V c).arrAt_eq_of_cover 2 (product (V c main_v17) (V c main_arg4)) (fun t _ => flushed_eq V c t) cover

end Cert.KernelIdeal.Support2

end
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibSmallLayout.lean ====
/-
  A few more values read at an index given by coordinates.

    • the square root and the exponential of a vector of extended reals are taken entry by entry;
    • a `[1, 1]` array spread to `[a, b]` reads its one entry everywhere;
    • a splat of a scalar word reads that word's value everywhere.
-/
import Idealize.ShloMosaic.Lib.ValueLayout
import Idealize.ShloMosaic.PureOps.Ideal.Laws

namespace Cert.SmallLayout

open Idealize.ShloMosaic Idealize.ShloMosaic.ValueIdx

variable {α : Type} {s : Shape} {φ : FTy}

/-- The square root of a vector of extended reals, at an index, is the square root of the entry there. -/
theorem sqrt_apply (a : FVec Ideal s φ) (i : s.Idx) : sqrt a i = Ideal.sqrt (a i) := rfl

/-- The exponential of a vector of extended reals, at an index, is the exponential of the entry there. -/
theorem exp_apply (a : FVec Ideal s φ) (i : s.Idx) : exp a i = Ideal.exp (a i) := rfl

/-- A splat of the scalar a word denotes reads, at every index, the extended real the word denotes. -/
theorem broadcast_ofBits_apply (b : BitVec (FTy.f32).bits) (i : s.Idx) :
    broadcast s (Scalar.ofBits (F := Ideal) .f32 b) i = Ideal.ofBits .f32 b := rfl

/-- A `[1, 1]` array broadcast to `[a, b]` reads, at every `(i, j)`, its one entry. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

end Cert.SmallLayout
-- ==== Proof.Normalize.lean ====
/-
  The normalization, block by block.

  The third launch divides every row of an `[8192, 64]` array by its Euclidean norm, the norm clipped below at the
  float nearest `1e-12`. It works on eight blocks of 1024 rows: grid point `t` reads rows `1024 t … 1024 t + 1023`,
  squares the entries, sums each row's 64 squares, takes the square root, clips it, and divides the row by the result;
  it writes the quotient twice, once as it is and once narrowed to the shorter float format — and over the extended
  reals narrowing changes nothing. A row's quotient depends on that row only, so each block written back is that
  block of rows of the whole normalized array; the eight blocks tile the 8192 rows, so each of the two arrays the
  launch leaves IS the whole normalized array, as the host would compute it.
-/
import proofs.«170679_j45561013076147_1_alg».proof.Proof.Gen.KernelIdeal.Frame
import proofs.«170679_j45561013076147_1_alg».proof.Proof.Spec
import proofs.«170679_j45561013076147_1_alg».proof.Proof.LibColumnLayout
import proofs.«170679_j45561013076147_1_alg».proof.Proof.LibSmallLayout
import Idealize.ShloMosaic.Lib.Pipeline.Value
import Idealize.ShloMosaic.Lib.ValueLayout

noncomputable section

namespace Cert.KernelIdeal.Normalize

open Cert.KernelIdeal Cert.KernelIdeal.Gen Idealize.ShloMosaic Idealize.ShloMosaic.TcCoe Idealize.SL.Sem
open Idealize.ShloMosaic.ValueIdx
open Idealize.ShloMosaic.Pipeline (Dat)

-- the contents of the TensorCore's buffers when the launch is entered
variable (V : (c : Dev nD) → (b : Ref sig .tc) → Buf (Elt Ideal) ((c : Thread nD τ).loc b))

theorem zeros : (![0, 0] : Fin 2 → Nat) = fun _ => 0 := funext fun a => by fin_cases a <;> rfl

/-- The clipping threshold: the float nearest `1e-12`, as an extended real. -/
abbrev eps : EReal := Ideal.ofBits .f32 0x2B8CBCCC#32

/-- One block's quotient at `(p, q)`: the entry divided by the clipped root of the sum of the squares of row `p`.
    Each step re-lays or combines values entry by entry: the division, the column spread along the row, the
    maximum, the root, the vector kept as a column, and the sum along the row from the zero accumulator. -/
theorem pay_apply (x0 : Vec Ideal S1024x64 .f32) (p : Fin 1024) (q : Fin 64) :
    k2_pay1 x0 (ix2 p q)
      = Ideal.div (x0 (ix2 p q)) (max (Ideal.sqrt (∑ k : Fin 64, x0 (ix2 p k) * x0 (ix2 p k))) eps) := by
  unfold k2_pay1
  simp only [shapeCast_self]
  rw [divf_apply]
  refine congrArg (Ideal.div (x0 (ix2 p q))) ?_
  refine (Cert.ColumnLayout.broadcastTo_a1_ab_apply _ _ p q).trans ?_
  rw [maximumf_apply, Cert.SmallLayout.sqrt_apply, Cert.SmallLayout.broadcast_ofBits_apply]
  refine congrArg (fun z => max (Ideal.sqrt z) eps) ?_
  refine (Cert.ColumnLayout.shapeCast_a_a1_apply _ _ p (0 : Fin 1)).trans ?_
  refine (Cert.ColumnLayout.rowSum_apply _ _ _ _ p).trans ?_
  rfl

/-- The host's normalized array at `(r, q)`: the same expression of row `r`. The host spreads the clipped norms, a
    column, along the rows; takes the maximum with the threshold first; and sums a row from the initial value zero,
    which adds nothing. -/
theorem spec_apply (H : FVec Ideal S8192x64 .f32) (r : Fin 8192) (q : Fin 64) :
    Cert.Spec.normalized H (ix2 r q)
      = Ideal.div (H (ix2 r q)) (max (Ideal.sqrt (∑ k : Fin 64, H (ix2 r k) * H (ix2 r k))) eps) := by
  unfold Cert.Spec.normalized
  show Ideal.div (H (ix2 r q)) (broadcastInDim _ _ _ _ (ix2 r q)) = _
  refine congrArg (Ideal.div (H (ix2 r q))) ?_
  refine (broadcastInDim_apply _ _ _ (ix2 r q) (ix2 r (0 : Fin 1)) (fun a => ?_)).trans ?_
  · match a with
    | ⟨0, _⟩ => show r.val = if (8192 : Nat) = 1 then 0 else r.val; rw [if_neg (by decide)]
    | ⟨1, _⟩ => show 0 = if (1 : Nat) = 1 then 0 else q.val; rw [if_pos rfl]
  show max (broadcastInDim _ _ _ _ (ix2 r (0 : Fin 1))) (Ideal.sqrt (broadcastInDim _ _ _ _ (ix2 r (0 : Fin 1)))) = _
  rw [max_comm]
  refine congrArg₂ (fun a b => max (Ideal.sqrt a) b) ?_ ?_
  · refine (broadcastInDim_apply _ _ _ (ix2 r (0 : Fin 1)) (ix1 r) (fun a => ?_)).trans ?_
    · match a with
      | ⟨0, _⟩ => show r.val = if (8192 : Nat) = 1 then 0 else r.val; rw [if_neg (by decide)]
    simp only [Host.reduceAdd, Ideal.hostReduceAdd_def]
    rw [Ideal.hostReduceAdd_single _ (by decide)]
    show Ideal.ofBits .f32 0x00000000#32 + ∑ k : Fin 64, (mulf H H) _ = _
    rw [Ideal.ofBits_zero_f32, zero_add]
    refine Finset.sum_congr rfl fun k _ => ?_
    exact congrArg (fun z => H z * H z) (funext fun a => Fin.ext (by match a with | ⟨0, _⟩ => rfl | ⟨1, _⟩ => rfl))
  · refine (broadcastInDim_apply _ _ _ (ix2 r (0 : Fin 1)) ix0 (fun a => a.elim0)).trans ?_
    rfl

/-- One block's quotient at `(p, q)` is the whole normalized array at `(r, q)` when row `p` of the block is row `r`
    of the array: both are the same expression of that row. -/
theorem block_entry (x0 : Vec Ideal S1024x64 .f32) (H : FVec Ideal S8192x64 .f32) (p : Fin 1024) (q : Fin 64)
    (r : Fin 8192) (hX : ∀ k : Fin 64, x0 (ix2 p k) = H (ix2 r k)) :
    k2_pay1 x0 (ix2 p q) = Cert.Spec.normalized H (ix2 r q) := by
  rw [pay_apply, spec_apply, hX q]
  refine congrArg (fun z => Ideal.div (H (ix2 r q)) (max (Ideal.sqrt z) eps)) ?_
  exact Finset.sum_congr rfl fun k _ => by rw [hX k]

/-- The narrowed quotient is the quotient: over the extended reals a change of float format is the identity. -/
theorem block_entry_narrow (x0 : Vec Ideal S1024x64 .f32) (H : FVec Ideal S8192x64 .f32) (p : Fin 1024) (q : Fin 64)
    (r : Fin 8192) (hX : ∀ k : Fin 64, x0 (ix2 p k) = H (ix2 r k)) :
    k2_pay2 x0 (ix2 p q) = Cert.Spec.normalized H (ix2 r q) :=
  block_entry x0 H p q r hX

/-- The printed index maps over the grid: the rows move with the point, the columns do not. -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row `p` of the block point `t` reads is row `1024 t + p` of the array the launch finds. -/
theorem block_row (c : Dev nD) (t : Fin cfg2.N) (p : Fin 1024) (hr : t.val * 1024 + p.val < 8192) (k : Fin 64) :
    iblk2 V c 0 t (ix2 p k) = V c main_v35 (ix2 (⟨t.val * 1024 + p.val, hr⟩ : Fin 8192) k) := by
  obtain ⟨e0, e1, e2, e3, e4, e5⟩ := index_facts t
  show V c main_v35 (((cfg2.win 0).blk t).view.emb (ix2 p k)) = V c main_v35 (ix2 ⟨t.val * 1024 + p.val, hr⟩ k)
  refine congrArg (V c main_v35) ?_
  funext a; apply Fin.ext
  match a with
  | ⟨0, _⟩ => show win2_0.index t (0 : Fin 2) * 1024 + 1 * p.val = t.val * 1024 + p.val; omega
  | ⟨1, _⟩ => show win2_0.index t (1 : Fin 2) * 64 + 1 * k.val = k.val; omega

/-- What point `t` writes back to the first result is block `t` of the normalized array. -/
theorem flushed_eq1 (c : Dev nD) (t : Fin cfg2.N) :
    (dat2 V c).flushed 1 t
      = ((cfg2.win 1).blk t).view.read (Elt Ideal) (Cert.Spec.normalized (V c main_v35)) := by
  show (cfg2.win 1).cut (grid2.coords t) ((dat2 V c).after 1 t) = _
  rw [after2_1]
  unfold out2_1
  rw [View.canon_unit_zero zeros]
  simp only [View.ld_unit_zero (S := S1024x64) zeros]
  obtain ⟨e0, e1, e2, e3, e4, e5⟩ := index_facts t
  have ht : t.val < 8 := by have := t.isLt; have hN : cfg2.N = 8 := N_2; omega
  funext y
  obtain ⟨p, q, rfl⟩ : ∃ (p : Fin 1024) (q : Fin 64), y = ix2 p q := ⟨y 0, y 1, eq_ix2 y⟩
  show k2_pay1 (iblk2 V c 0 t) (ix2 p q)
    = Cert.Spec.normalized (V c main_v35) (((cfg2.win 1).blk t).view.emb (ix2 p q))
  have hr : t.val * 1024 + p.val < 8192 := by have := p.isLt; omega
  have hemb : ((cfg2.win 1).blk t).view.emb (ix2 p q) = ix2 (⟨t.val * 1024 + p.val, hr⟩ : Fin 8192) q := by
    funext a; apply Fin.ext
    match a with
    | ⟨0, _⟩ => show win2_1.index t (0 : Fin 2) * 1024 + 1 * p.val = t.val * 1024 + p.val; omega
    | ⟨1, _⟩ => show win2_1.index t (1 : Fin 2) * 64 + 1 * q.val = q.val; omega
  rw [hemb]
  exact block_entry _ _ p q ⟨t.val * 1024 + p.val, hr⟩ (block_row V c t p hr)

/-- What point `t` writes back to the second result is block `t` of the normalized array. -/
theorem flushed_eq2 (c : Dev nD) (t : Fin cfg2.N) :
    (dat2 V c).flushed 2 t
      = ((cfg2.win 2).blk t).view.read (Elt Ideal) (Cert.Spec.normalized (V c main_v35)) := by
  show (cfg2.win 2).cut (grid2.coords t) ((dat2 V c).after 2 t) = _
  rw [after2_2]
  unfold out2_2
  rw [View.canon_unit_zero zeros]
  simp only [View.ld_unit_zero (S := S1024x64) zeros]
  obtain ⟨e0, e1, e2, e3, e4, e5⟩ := index_facts t
  have ht : t.val < 8 := by have := t.isLt; have hN : cfg2.N = 8 := N_2; omega
  funext y
  obtain ⟨p, q, rfl⟩ : ∃ (p : Fin 1024) (q : Fin 64), y = ix2 p q := ⟨y 0, y 1, eq_ix2 y⟩
  show k2_pay2 (iblk2 V c 0 t) (ix2 p q)
    = Cert.Spec.normalized (V c main_v35) (((cfg2.win 2).blk t).view.emb (ix2 p q))
  have hr : t.val * 1024 + p.val < 8192 := by have := p.isLt; omega
  have hemb : ((cfg2.win 2).blk t).view.emb (ix2 p q) = ix2 (⟨t.val * 1024 + p.val, hr⟩ : Fin 8192) q := by
    funext a; apply Fin.ext
    match a with
    | ⟨0, _⟩ => show win2_2.index t (0 : Fin 2) * 1024 + 1 * p.val = t.val * 1024 + p.val; omega
    | ⟨1, _⟩ => show win2_2.index t (1 : Fin 2) * 64 + 1 * q.val = q.val; omega
  rw [hemb]
  exact block_entry_narrow _ _ p q ⟨t.val * 1024 + p.val, hr⟩ (block_row V c t p hr)

/-- An index of the first result is in point `t`'s block iff each coordinate is in the block's range on its axis. -/
theorem mem_blk1 (t : Fin cfg2.N) (i : S8192x64.Idx) :
    i ∈ ((cfg2.win 1).blk t).view.set ↔ ∀ a : Fin 2, win2_1.index t a * S1024x64.size a ≤ (i a).val
      ∧ (i a).val < win2_1.index t a * S1024x64.size a + S1024x64.size a := by
  show i ∈ ((View.whole main_v36_0).slice (win2_1.rect t)).set ↔ _
  rw [View.set_slice_whole, Rect.mem_set_unit]
  exact Iff.rfl

/-- The same for the second result. -/
theorem mem_blk2 (t : Fin cfg2.N) (i : S8192x64.Idx) :
    i ∈ ((cfg2.win 2).blk t).view.set ↔ ∀ a : Fin 2, win2_2.index t a * S1024x64.size a ≤ (i a).val
      ∧ (i a).val < win2_2.index t a * S1024x64.size a + S1024x64.size a := by
  show i ∈ ((View.whole main_v36_1).slice (win2_2.rect t)).set ↔ _
  rw [View.set_slice_whole, Rect.mem_set_unit]
  exact Iff.rfl

/-- Every row of the first result is in the block of the point `row / 1024`. -/
theorem cover1 (i : S8192x64.Idx) :
    ∃ t : Fin cfg2.N, (cfg2.win 1).flush t = true ∧ i ∈ ((cfg2.win 1).blk t).view.set := by
  have hi0 : (i 0).val < 8192 := (i 0).isLt
  have hi1 : (i 1).val < 64 := (i 1).isLt
  have hN : cfg2.N = 8 := N_2
  refine ⟨⟨(i 0).val / 1024, by rw [hN]; omega⟩, flush2_1 _, ?_⟩
  rw [mem_blk1]
  obtain ⟨e0, e1, e2, e3, e4, e5⟩ := index_facts ⟨(i 0).val / 1024, by rw [hN]; omega⟩
  intro a
  match a with
  | ⟨0, _⟩ =>
    show win2_1.index _ (0 : Fin 2) * 1024 ≤ (i 0).val ∧ (i 0).val < win2_1.index _ (0 : Fin 2) * 1024 + 1024
    rw [e2]; show (i 0).val / 1024 * 1024 ≤ (i 0).val ∧ (i 0).val < (i 0).val / 1024 * 1024 + 1024; omega
  | ⟨1, _⟩ =>
    show win2_1.index _ (1 : Fin 2) * 64 ≤ (i 1).val ∧ (i 1).val < win2_1.index _ (1 : Fin 2) * 64 + 64
    rw [e3]; omega

/-- Every row of the second result is in the block of the point `row / 1024`. -/
theorem cover2 (i : S8192x64.Idx) :
    ∃ t : Fin cfg2.N, (cfg2.win 2).flush t = true ∧ i ∈ ((cfg2.win 2).blk t).view.set := by
  have hi0 : (i 0).val < 8192 := (i 0).isLt
  have hi1 : (i 1).val < 64 := (i 1).isLt
  have hN : cfg2.N = 8 := N_2
  refine ⟨⟨(i 0).val / 1024, by rw [hN]; omega⟩, flush2_2 _, ?_⟩
  rw [mem_blk2]
  obtain ⟨e0, e1, e2, e3, e4, e5⟩ := index_facts ⟨(i 0).val / 1024, by rw [hN]; omega⟩
  intro a
  match a with
  | ⟨0, _⟩ =>
    show win2_2.index _ (0 : Fin 2) * 1024 ≤ (i 0).val ∧ (i 0).val < win2_2.index _ (0 : Fin 2) * 1024 + 1024
    rw [e4]; show (i 0).val / 1024 * 1024 ≤ (i 0).val ∧ (i 0).val < (i 0).val / 1024 * 1024 + 1024; omega
  | ⟨1, _⟩ =>
    show win2_2.index _ (1 : Fin 2) * 64 ≤ (i 1).val ∧ (i 1).val < win2_2.index _ (1 : Fin 2) * 64 + 64
    rw [e5]; omega

/-- THE FIRST ARRAY THE LAUNCH LEAVES: the normalized array of the one it found. -/
theorem result_f32 (c : Dev nD) :
    (dat2 V c).arrAt 1 cfg2.N = Cert.Spec.normalized (V c main_v35) :=
  (dat2 V c).arrAt_eq_of_cover 1 (Cert.Spec.normalized (V c main_v35)) (fun t _ => flushed_eq1 V c t) cover1

/-- THE SECOND ARRAY THE LAUNCH LEAVES: the same normalized array (the shorter format holds the same extended reals). -/
theorem result_bf16 (c : Dev nD) :
    (dat2 V c).arrAt 2 cfg2.N = Cert.Spec.normalized (V c main_v35) :=
  (dat2 V c).arrAt_eq_of_cover 2 (Cert.Spec.normalized (V c main_v35)) (fun t _ => flushed_eq2 V c t) cover2

end Cert.KernelIdeal.Normalize

end
-- ==== Proof.Decode.lean ====
/-
  The decoded adjacency, block by block.

  The last launch computes `logistic (z · zᵀ)` on thirty-two blocks of 256 rows: grid point `t` reads rows
  `256 t … 256 t + 255` of the (bf16 copy of the) embedding as the left factor and the whole transposed embedding as the
  right factor, multiplies them on the matrix unit into the zero matrix, applies the logistic function entry by entry
  and writes rows `256 t … 256 t + 255` of the result. A row of a product depends on that row of the left factor only,
  and on the extended reals the matrix unit's logistic IS `1 / (1 + e^(-s))` in the host's operations; so each block
  written back is that block of rows of the host-style `1 / (1 + exp (-(zl · zr)))` of the two whole arrays, and the
  thirty-two blocks tile the 8192 rows.
-/
import proofs.«170679_j45561013076147_1_alg».proof.Proof.Gen.KernelIdeal.Frame
import proofs.«170679_j45561013076147_1_alg».proof.Proof.LibRowBlockMatmul
import proofs.«170679_j45561013076147_1_alg».proof.Proof.Spec
import Idealize.ShloMosaic.Lib.Pipeline.Value

noncomputable section

namespace Cert.KernelIdeal.Decode

open Cert.KernelIdeal Cert.KernelIdeal.Gen Idealize.ShloMosaic Idealize.ShloMosaic.TcCoe Idealize.SL.Sem
open Idealize.ShloMosaic.ValueIdx
open Idealize.ShloMosaic.Pipeline (Dat)

-- the contents of the TensorCore's buffers when the launch is entered
variable (V : (c : Dev nD) → (b : Ref sig .tc) → Buf (Elt Ideal) ((c : Thread nD τ).loc b))

theorem zeros : (![0, 0] : Fin 2 → Nat) = fun _ => 0 := funext fun a => by fin_cases a <;> rfl

/-- The float `1.0` denotes the real number one. -/
theorem ofBits_one : Ideal.ofBits .f32 0x3F800000#32 = 1 := by
  simp [Ideal.ofBits, Ideal.ieee, -EReal.coe_mul]; norm_num

/-- The scalar `1.0` spread over the whole result reads `1` everywhere. -/
theorem ones_apply (i : Cert.ReferenceIdeal.S8192x8192.Idx) :
    broadcastInDim Cert.ReferenceIdeal.S8192x8192 ![] Cert.ReferenceIdeal.Gen.bcast_S_S8192x8192
      (constant (F := Ideal) Cert.ReferenceIdeal.S_ .f32 0x3F800000#32) i = 1 :=
  (broadcastInDim_apply _ Cert.ReferenceIdeal.Gen.bcast_S_S8192x8192 _ i ix0 (fun a => a.elim0)).trans ofBits_one

/-- One block's payload at `(p, q)` is the whole host-style result at `(r, q)` when row `p` of the left block is
    row `r` of the whole left factor. -/
theorem block_entry (x0 : Vec Ideal S256x64 .bf16) (x1 : Vec Ideal S64x8192 .bf16)
    (ZL : FVec Ideal S8192x64 .bf16) (ZR : FVec Ideal S64x8192 .bf16) (p : Fin 256) (q : Fin 8192) (r : Fin 8192)
    (hX : ∀ k : Fin 64, x0 (ix2 p k) = ZL (ix2 r k)) (hW : ∀ k : Fin 64, x1 (ix2 k q) = ZR (ix2 k q)) :
    k3_pay1 x0 x1 (ix2 p q) = Cert.Spec.decodedOf (φ₁ := .bf16) (φ₂ := .bf16) ZL ZR (ix2 r q) := by
  have hm := Cert.RowBlockMatmul.rowBlock_apply (φ₁ := .bf16) (φ₂ := .bf16) .single ZL ZR x0 x1 p q r hX hW
  unfold k3_pay1 Cert.Spec.decodedOf
  rw [shapeCast_self, shapeCast_self]
  refine (congrArg Ideal.logistic hm).trans ?_
  show Ideal.div 1 (1 + Ideal.exp (-(FloatOps.dotGeneral (DotDims.plain 8192 64 8192) none .single ZL ZR (ix2 r q))))
    = Ideal.div (broadcastInDim Cert.ReferenceIdeal.S8192x8192 ![] Cert.ReferenceIdeal.Gen.bcast_S_S8192x8192
          (constant (F := Ideal) Cert.ReferenceIdeal.S_ .f32 0x3F800000#32) (ix2 r q))
        (broadcastInDim Cert.ReferenceIdeal.S8192x8192 ![] Cert.ReferenceIdeal.Gen.bcast_S_S8192x8192
          (constant (F := Ideal) Cert.ReferenceIdeal.S_ .f32 0x3F800000#32) (ix2 r q)
          + Ideal.exp (-(FloatOps.dotGeneral (DotDims.plain 8192 64 8192) none .single ZL ZR (ix2 r q))))
  rw [ones_apply]

/-- The printed index maps over the grid: the rows move with the point, the columns do not. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the host-style result of the two arrays the launch finds. -/
theorem flushed_eq (c : Dev nD) (t : Fin cfg3.N) :
    (dat3 V c).flushed 2 t
      = ((cfg3.win 2).blk t).view.read (Elt Ideal) (Cert.Spec.decodedOf (φ₁ := .bf16) (φ₂ := .bf16) (V c main_v36_1) (V c main_v37)) := by
  show (cfg3.win 2).cut (grid3.coords t) ((dat3 V c).after 2 t) = _
  rw [after3_2]
  unfold out3_2
  rw [View.canon_unit_zero zeros]
  simp only [View.ld_unit_zero (S := S256x64) zeros, View.ld_unit_zero (S := S64x8192) zeros]
  obtain ⟨e0, e1, e2, e3, e4, e5⟩ := index_facts t
  have ht : t.val < 32 := by have := t.isLt; have hN : cfg3.N = 32 := N_3; omega
  funext y
  obtain ⟨p, q, rfl⟩ : ∃ (p : Fin 256) (q : Fin 8192), y = ix2 p q := ⟨y 0, y 1, eq_ix2 y⟩
  show k3_pay1 (iblk3 V c 0 t) (iblk3 V c 1 t) (ix2 p q)
    = Cert.Spec.decodedOf (φ₁ := .bf16) (φ₂ := .bf16) (V c main_v36_1) (V c main_v37) (((cfg3.win 2).blk t).view.emb (ix2 p q))
  have hr : t.val * 256 + p.val < 8192 := by have := p.isLt; omega
  have hemb : ((cfg3.win 2).blk t).view.emb (ix2 p q) = ix2 (⟨t.val * 256 + p.val, hr⟩ : Fin 8192) q := by
    funext a; apply Fin.ext
    match a with
    | ⟨0, _⟩ => show win3_2.index t (0 : Fin 2) * 256 + 1 * p.val = t.val * 256 + p.val; omega
    | ⟨1, _⟩ => show win3_2.index t (1 : Fin 2) * 8192 + 1 * q.val = q.val; omega
  rw [hemb]
  refine block_entry _ _ _ _ p q ⟨t.val * 256 + p.val, hr⟩ (fun k => ?_) (fun k => ?_)
  · show V c main_v36_1 (((cfg3.win 0).blk t).view.emb (ix2 p k)) = V c main_v36_1 (ix2 ⟨t.val * 256 + p.val, hr⟩ k)
    refine congrArg (V c main_v36_1) ?_
    funext a; apply Fin.ext
    match a with
    | ⟨0, _⟩ => show win3_0.index t (0 : Fin 2) * 256 + 1 * p.val = t.val * 256 + p.val; omega
    | ⟨1, _⟩ => show win3_0.index t (1 : Fin 2) * 64 + 1 * k.val = k.val; omega
  · show V c main_v37 (((cfg3.win 1).blk t).view.emb (ix2 k q)) = V c main_v37 (ix2 k q)
    refine congrArg (V c main_v37) ?_
    funext a; apply Fin.ext
    match a with
    | ⟨0, _⟩ => show win3_1.index t (0 : Fin 2) * 64 + 1 * k.val = k.val; omega
    | ⟨1, _⟩ => show win3_1.index t (1 : Fin 2) * 8192 + 1 * q.val = q.val; omega

/-- An index of the result is in point `t`'s block iff each coordinate is in the block's range on its axis. -/
theorem mem_blk (t : Fin cfg3.N) (i : S8192x8192.Idx) :
    i ∈ ((cfg3.win 2).blk t).view.set ↔ ∀ a : Fin 2, win3_2.index t a * S256x8192.size a ≤ (i a).val
      ∧ (i a).val < win3_2.index t a * S256x8192.size a + S256x8192.size a := by
  show i ∈ ((View.whole main_v38).slice (win3_2.rect t)).set ↔ _
  rw [View.set_slice_whole, Rect.mem_set_unit]
  exact Iff.rfl

/-- Every row of the result is in the block of the point `row / 256`. -/
theorem cover (i : S8192x8192.Idx) :
    ∃ t : Fin cfg3.N, (cfg3.win 2).flush t = true ∧ i ∈ ((cfg3.win 2).blk t).view.set := by
  have hi0 : (i 0).val < 8192 := (i 0).isLt
  have hi1 : (i 1).val < 8192 := (i 1).isLt
  have hN : cfg3.N = 32 := N_3
  refine ⟨⟨(i 0).val / 256, by rw [hN]; omega⟩, flush3_2 _, ?_⟩
  rw [mem_blk]
  obtain ⟨e0, e1, e2, e3, e4, e5⟩ := index_facts ⟨(i 0).val / 256, by rw [hN]; omega⟩
  intro a
  match a with
  | ⟨0, _⟩ =>
    show win3_2.index _ (0 : Fin 2) * 256 ≤ (i 0).val ∧ (i 0).val < win3_2.index _ (0 : Fin 2) * 256 + 256
    rw [e4]; show (i 0).val / 256 * 256 ≤ (i 0).val ∧ (i 0).val < (i 0).val / 256 * 256 + 256; omega
  | ⟨1, _⟩ =>
    show win3_2.index _ (1 : Fin 2) * 8192 ≤ (i 1).val ∧ (i 1).val < win3_2.index _ (1 : Fin 2) * 8192 + 8192
    rw [e5]; omega

/-- THE ARRAY THE LAUNCH LEAVES: the host-style logistic of the product of the two arrays it found. -/
theorem result (c : Dev nD) :
    (dat3 V c).arrAt 2 cfg3.N = Cert.Spec.decodedOf (φ₁ := .bf16) (φ₂ := .bf16) (V c main_v36_1) (V c main_v37) :=
  (dat3 V c).arrAt_eq_of_cover 2 (Cert.Spec.decodedOf (φ₁ := .bf16) (φ₂ := .bf16) (V c main_v36_1) (V c main_v37)) (fun t _ => flushed_eq V c t) cover

end Cert.KernelIdeal.Decode

end
-- ==== Proof.KernelValue.lean ====
/-
  What the idealized kernel's two result arrays hold.

  The buffer contents at the seven segment boundaries are followed from the launch memory to the return: the first
  launch leaves `x · W1`; the first host stretch aggregates it along the edges; the second launch multiplies by `W2`;
  the second host stretch aggregates again; the third launch normalizes every row, leaving the embedding twice (once
  per float format, the same extended reals); the last host operation transposes it; the last launch leaves the
  logistic function of `z · zᵀ`. Each launch's array is a whole-array function of the arrays it found (the four block
  modules), each host stretch is its operations composed, and a buffer no segment writes keeps its contents; composed,
  the two results are the embedding and its decoded adjacency of the five argument arrays, in the host's operations.
-/
import proofs.«170679_j45561013076147_1_alg».proof.Proof.KernelRun
import proofs.«170679_j45561013076147_1_alg».proof.Proof.Support1
import proofs.«170679_j45561013076147_1_alg».proof.Proof.Support2
import proofs.«170679_j45561013076147_1_alg».proof.Proof.Normalize
import proofs.«170679_j45561013076147_1_alg».proof.Proof.Decode
import proofs.«170679_j45561013076147_1_alg».proof.Proof.Spec
import Idealize.ShloMosaic.Lib.StableHlo.Run

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first launch -/

theorem W1_v0 : W1 m ρ c (Proc.devRef .tc main_v0)
    = Cert.Spec.project1 (m ((c : Thread nD τ).loc main_arg0)) (m ((c : Thread nD τ).loc main_arg3)) :=
  (W1_arr m ρ c 2).trans (Support1.result (V0 m ρ) c)

theorem W1_arg1 : W1 m ρ c (Proc.devRef .tc main_arg1) = m ((c : Thread nD τ).loc main_arg1) :=
  W1_of_ne m ρ c main_arg1 (by decide)
theorem W1_arg2 : W1 m ρ c (Proc.devRef .tc main_arg2) = m ((c : Thread nD τ).loc main_arg2) :=
  W1_of_ne m ρ c main_arg2 (by decide)
theorem W1_arg4 : W1 m ρ c (Proc.devRef .tc main_arg4) = m ((c : Thread nD τ).loc main_arg4) :=
  W1_of_ne m ρ c main_arg4 (by decide)

/-! ## After the first host stretch -/

theorem W2_v17 : W2 m ρ c (Proc.devRef .tc main_v17)
    = Cert.Spec.aggregate1 (Cert.Spec.project1 (m ((c : Thread nD τ).loc main_arg0)) (m ((c : Thread nD τ).loc main_arg3)))
        (m ((c : Thread nD τ).loc main_arg1)) (m ((c : Thread nD τ).loc main_arg2)) := by
  show StableHlo.after hostOps1 (W1 m ρ c) (Proc.devRef .tc main_v17) = _
  after_results_simp
  rw [W1_v0, W1_arg1, W1_arg2]
  rfl

theorem W2_arg1 : W2 m ρ c (Proc.devRef .tc main_arg1) = m ((c : Thread nD τ).loc main_arg1) := by
  show StableHlo.after hostOps1 (W1 m ρ c) (Proc.devRef .tc main_arg1) = _
  after_results
  exact W1_arg1 m ρ c
theorem W2_arg2 : W2 m ρ c (Proc.devRef .tc main_arg2) = m ((c : Thread nD τ).loc main_arg2) := by
  show StableHlo.after hostOps1 (W1 m ρ c) (Proc.devRef .tc main_arg2) = _
  after_results
  exact W1_arg2 m ρ c
theorem W2_arg4 : W2 m ρ c (Proc.devRef .tc main_arg4) = m ((c : Thread nD τ).loc main_arg4) := by
  show StableHlo.after hostOps1 (W1 m ρ c) (Proc.devRef .tc main_arg4) = _
  after_results
  exact W1_arg4 m ρ c

/-! ## After the second launch -/

theorem W3_v18 : W3 m ρ c (Proc.devRef .tc main_v18)
    = Cert.Spec.project2 (Cert.Spec.aggregate1 (Cert.Spec.project1 (m ((c : Thread nD τ).loc main_arg0)) (m ((c : Thread nD τ).loc main_arg3)))
        (m ((c : Thread nD τ).loc main_arg1)) (m ((c : Thread nD τ).loc main_arg2))) (m ((c : Thread nD τ).loc main_arg4)) := by
  refine ((W3_arr m ρ c 2).trans (Support2.result (V2 m ρ) c)).trans ?_
  show Support2.product (W2 m ρ c (Proc.devRef .tc main_v17)) (W2 m ρ c (Proc.devRef .tc main_arg4)) = _
  rw [W2_v17, W2_arg4]
  rfl

theorem W3_arg1 : W3 m ρ c (Proc.devRef .tc main_arg1) = m ((c : Thread nD τ).loc main_arg1) :=
  (W3_of_ne m ρ c main_arg1 (by decide)).trans (W2_arg1 m ρ c)
theorem W3_arg2 : W3 m ρ c (Proc.devRef .tc main_arg2) = m ((c : Thread nD τ).loc main_arg2) :=
  (W3_of_ne m ρ c main_arg2 (by decide)).trans (W2_arg2 m ρ c)

/-! ## After the second host stretch -/

theorem W4_v35 : W4 m ρ c (Proc.devRef .tc main_v35)
    = Cert.Spec.aggregate2 (Cert.Spec.project2 (Cert.Spec.aggregate1 (Cert.Spec.project1 (m ((c : Thread nD τ).loc main_arg0)) (m ((c : Thread nD τ).loc main_arg3)))
        (m ((c : Thread nD τ).loc main_arg1)) (m ((c : Thread nD τ).loc main_arg2))) (m ((c : Thread nD τ).loc main_arg4)))
        (m ((c : Thread nD τ).loc main_arg1)) (m ((c : Thread nD τ).loc main_arg2)) := by
  show StableHlo.after hostOps2 (W3 m ρ c) (Proc.devRef .tc main_v35) = _
  after_results_simp
  rw [W3_v18, W3_arg1, W3_arg2]
  rfl

/-! ## After the third launch: the embedding, in both float formats -/

theorem W5_v36_0 : W5 m ρ c (Proc.devRef .tc main_v36_0)
    = Cert.Spec.embedding (m ((c : Thread nD τ).loc main_arg0)) (m ((c : Thread nD τ).loc main_arg1))
        (m ((c : Thread nD τ).loc main_arg2)) (m ((c : Thread nD τ).loc main_arg3)) (m ((c : Thread nD τ).loc main_arg4)) := by
  refine ((W5_arr m ρ c 1).trans (Normalize.result_f32 (V4 m ρ) c)).trans ?_
  show Cert.Spec.normalized (W4 m ρ c (Proc.devRef .tc main_v35)) = _
  rw [W4_v35]
  rfl

theorem W5_v36_1 : W5 m ρ c (Proc.devRef .tc main_v36_1)
    = Cert.Spec.embedding (m ((c : Thread nD τ).loc main_arg0)) (m ((c : Thread nD τ).loc main_arg1))
        (m ((c : Thread nD τ).loc main_arg2)) (m ((c : Thread nD τ).loc main_arg3)) (m ((c : Thread nD τ).loc main_arg4)) := by
  refine ((W5_arr m ρ c 2).trans (Normalize.result_bf16 (V4 m ρ) c)).trans ?_
  show Cert.Spec.normalized (W4 m ρ c (Proc.devRef .tc main_v35)) = _
  rw [W4_v35]
  rfl

/-! ## After the transpose -/

theorem W6_v37 : W6 m ρ c (Proc.devRef .tc main_v37)
    = transpose S64x8192 [1, 0] (Cert.Spec.embedding (m ((c : Thread nD τ).loc main_arg0)) (m ((c : Thread nD τ).loc main_arg1))
        (m ((c : Thread nD τ).loc main_arg2)) (m ((c : Thread nD τ).loc main_arg3)) (m ((c : Thread nD τ).loc main_arg4)))
        transposes_S8192x64_S64x8192_1_0 := by
  show StableHlo.after hostOps3 (W5 m ρ c) (Proc.devRef .tc main_v37) = _
  after_results_simp
  rw [W5_v36_1]

theorem W6_v36_1 : W6 m ρ c (Proc.devRef .tc main_v36_1)
    = Cert.Spec.embedding (m ((c : Thread nD τ).loc main_arg0)) (m ((c : Thread nD τ).loc main_arg1))
        (m ((c : Thread nD τ).loc main_arg2)) (m ((c : Thread nD τ).loc main_arg3)) (m ((c : Thread nD τ).loc main_arg4)) := by
  show StableHlo.after hostOps3 (W5 m ρ c) (Proc.devRef .tc main_v36_1) = _
  after_results_simp
  exact W5_v36_1 m ρ c

theorem W6_v36_0 : W6 m ρ c (Proc.devRef .tc main_v36_0)
    = Cert.Spec.embedding (m ((c : Thread nD τ).loc main_arg0)) (m ((c : Thread nD τ).loc main_arg1))
        (m ((c : Thread nD τ).loc main_arg2)) (m ((c : Thread nD τ).loc main_arg3)) (m ((c : Thread nD τ).loc main_arg4)) := by
  show StableHlo.after hostOps3 (W5 m ρ c) (Proc.devRef .tc main_v36_0) = _
  after_results_simp
  exact W5_v36_0 m ρ c

/-! ## After the last launch: the two results -/

/-- The first result: the decoded adjacency of the embedding of the argument arrays. -/
theorem W7_v38 : W7 m ρ c (Proc.devRef .tc main_v38)
    = Cert.Spec.decoded (Cert.Spec.embedding (m ((c : Thread nD τ).loc main_arg0)) (m ((c : Thread nD τ).loc main_arg1))
        (m ((c : Thread nD τ).loc main_arg2)) (m ((c : Thread nD τ).loc main_arg3)) (m ((c : Thread nD τ).loc main_arg4))) := by
  refine ((W7_arr m ρ c 2).trans (Decode.result (V6 m ρ) c)).trans ?_
  show Cert.Spec.decodedOf (φ₁ := .bf16) (φ₂ := .bf16) (W6 m ρ c (Proc.devRef .tc main_v36_1)) (W6 m ρ c (Proc.devRef .tc main_v37)) = _
  rw [W6_v36_1, W6_v37]
  rfl

/-- The second result: the embedding of the argument arrays. -/
theorem W7_v36_0 : W7 m ρ c (Proc.devRef .tc main_v36_0)
    = Cert.Spec.embedding (m ((c : Thread nD τ).loc main_arg0)) (m ((c : Thread nD τ).loc main_arg1))
        (m ((c : Thread nD τ).loc main_arg2)) (m ((c : Thread nD τ).loc main_arg3)) (m ((c : Thread nD τ).loc main_arg4)) :=
  (W7_of_ne m ρ c main_v36_0 (by decide)).trans (W6_v36_0 m ρ c)

end Cert.KernelIdeal.Whole

end
-- ==== Proof.lean ====
/-
  Two graph-convolution layers, a row normalization and a dot-product decoder: the tiled kernel against the plain
  reference, on the extended reals.

  The reference computes `h1 = aggregate (x · W1)`, `h2 = aggregate (h1 · W2)` (rows gathered along the edges'
  destinations, scaled by the edge weights, summed at the sources), the embedding `z = h2 / max(‖h2‖, 1e-12)` row by
  row, and the adjacency `1 / (1 + exp (-(z · zᵀ)))`. The kernel computes the two products, the normalization and the
  decoder in four launches, each over blocks of rows, and the two aggregations on the host between them, with the same
  host operations as the reference. On the extended reals a change of float format is the identity, a product on a
  block of rows is that block of rows of the whole product, a row's norm depends on that row only, and the matrix
  unit's logistic function is `1 / (1 + e^(-s))`; so every launch leaves the whole-array function the reference
  applies at that stage (the four block modules), and the two programs' results are the same composition of the same
  stages of the argument arrays (`Cert.Spec`), whatever those arrays hold. The precondition is never opened.

  The three frames: the two kernels' are the generated ones; the reference's is its generated run with the results
  dropped. The ideal pass rewrote nothing, so `preserves` is trivial.
-/
import proofs.«170679_j45561013076147_1_alg».proof.Defs
import proofs.«170679_j45561013076147_1_alg».proof.Proof.Gen.Kernel
import proofs.«170679_j45561013076147_1_alg».proof.Proof.Gen.Kernel.Frame
import proofs.«170679_j45561013076147_1_alg».proof.Proof.Gen.KernelIdeal
import proofs.«170679_j45561013076147_1_alg».proof.Proof.Gen.KernelIdeal.Frame
import proofs.«170679_j45561013076147_1_alg».proof.Proof.Gen.ReferenceIdeal
import proofs.«170679_j45561013076147_1_alg».proof.Proof.Gen.ReferenceIdeal.Run
import proofs.«170679_j45561013076147_1_alg».proof.Proof.Gen.Pre_finite_inputs
import proofs.«170679_j45561013076147_1_alg».proof.Proof.Spec
import proofs.«170679_j45561013076147_1_alg».proof.Proof.KernelValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the decoded adjacency and the embedding of the argument arrays: the kernel by following
    its segment boundaries, the reference by unfolding its composed term; the arguments agree. -/
theorem algebraic : Cert.algebraic_KernelIdeal_ReferenceIdeal := by
  intro m ρ m' ρ' _ hagree
  refine ⟨fun c => Cert.Spec.decoded (Cert.Spec.embedding
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))),
    fun c => Cert.Spec.embedding
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Whole.W7_v38 m ρ c),
        (h c).2.1.trans (Cert.KernelIdeal.Whole.W7_v36_0 m ρ c), (h c).2.2⟩)
      (Cert.KernelIdeal.Whole.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · refine (Cert.Spec.reference_adjacency m' c).trans ?_
      rw [(hagree c).1, (hagree c).2.1, (hagree c).2.2.1, (hagree c).2.2.2.1, (hagree c).2.2.2.2]
    · refine (Cert.Spec.reference_embedding m' c).trans ?_
      rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
